-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x512x4096 : Shape := ⟨3, ![8, 512, 4096]⟩
abbrev S8x512 : Shape := ⟨2, ![8, 512]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x512x4096 : S_.BroadcastsInDim S8x512x4096 (![] : Fin 0 → Fin S8x512x4096.rank)
  reducesTo_S8x512x4096_S_d0_1_2 : S8x512x4096.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S8x4096x1024 .f32) (main_arg1 : FVec F S8x512x4096 .f32) (main_arg2 : FVec F S8x512 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x512x4096 .f32 := Host.absf main_arg1
  let main_cst_0 : FVec F S_ .f32 := constant S_ .f32 0x7F800000#32
  let main_v5 : FVec F S8x512x4096 .f32 := broadcastInDim S8x512x4096 ![] bcast_S_S8x512x4096 main_cst_0
  let main_v6 : IVec S8x512x4096 1 := cmpf .olt main_v4 main_v5
  let main_c_1 : IVec S_ 1 := constantI S_ 1 1#1
  let main_v7 : IVec S_ 1 := (fun x v => Host.reduce IntOp.andi x v reducesTo_S8x512x4096_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S8x4096x1024 : Shape := ⟨3, ![8, 4096, 1024]⟩
abbrev S8x512x4096 : Shape := ⟨3, ![8, 512, 4096]⟩
abbrev S8x512 : Shape := ⟨2, ![8, 512]⟩
abbrev S8x512x1 : Shape := ⟨3, ![8, 512, 1]⟩
abbrev S8x512x1024 : Shape := ⟨3, ![8, 512, 1024]⟩
abbrev S1x512x2048 : Shape := ⟨3, ![1, 512, 2048]⟩
abbrev S1x2048x1024 : Shape := ⟨3, ![1, 2048, 1024]⟩
abbrev S1x512x1 : Shape := ⟨3, ![1, 512, 1]⟩
abbrev S1x512x1024 : Shape := ⟨3, ![1, 512, 1024]⟩
abbrev S512x1024 : Shape := ⟨2, ![512, 1024]⟩
abbrev S512x2048 : Shape := ⟨2, ![512, 2048]⟩
abbrev S2048x1024 : Shape := ⟨2, ![2048, 1024]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .f32⟩
  | .hbm, ⟨2, _⟩ => ⟨S8x512, .f32⟩
  | .hbm, ⟨3, _⟩ => ⟨S8x512x1, .f32⟩
  | .hbm, ⟨4, _⟩ => ⟨S8x512x1024, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x512x1, .f32⟩
  | .local _ .vmem, ⟨5, _⟩ => ⟨S1x512x1, .f32⟩
  | .local _ .vmem, ⟨6, _⟩ => ⟨S1x512x1024, .f32⟩
  | .local _ .vmem, ⟨7, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S8x512_S8x512x1_0_1 : S8x512.BroadcastsInDim S8x512x1 (![0, 1] : Fin 2 → Fin S8x512x1.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x512x4096.size a
  hwx0_0 : ∀ i : grid0.Coords, EltTy.bits .f32 = 32 ∨ (Rect.block (s := S8x512x4096) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x4096x1024.size a
  hwx0_1 : ∀ i : grid0.Coords, EltTy.bits .f32 = 32 ∨ (Rect.block (s := S8x4096x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x512x1.size a
  hwx0_2 : ∀ i : grid0.Coords, EltTy.bits .f32 = 32 ∨ (Rect.block (s := S8x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x512x1024.size a
  hwx0_3 : ∀ i : grid0.Coords, EltTy.bits .f32 = 32 ∨ (Rect.block (s := S8x512x1024) S1x512x1024.size (cc0_transform_3 i) (hinb0_3 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x512x4096 : Shape := ⟨3, ![8, 512, 4096]⟩
abbrev S8x512 : Shape := ⟨2, ![8, 512]⟩
abbrev S8x512x1024 : Shape := ⟨3, ![8, 512, 1024]⟩
abbrev S8x512x1 : Shape := ⟨3, ![8, 512, 1]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .f32⟩
  | .hbm, ⟨2, _⟩ => ⟨S8x512, .f32⟩
  | .hbm, ⟨3, _⟩ => ⟨S8x512x1024, .f32⟩
  | .hbm, ⟨4, _⟩ => ⟨S8x512x1, .f32⟩
  | .hbm, ⟨5, _⟩ => ⟨S8x512x1024, .f32⟩
  | .hbm, ⟨6, _⟩ => ⟨S8x512x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8x512_S8x512x1_0_1 : S8x512.BroadcastsInDim S8x512x1 (![0, 1] : Fin 2 → Fin S8x512x1.rank)
  bcast_S8x512x1_S8x512x1024_0_1_2 : S8x512x1.BroadcastsInDim S8x512x1024 (![0, 1, 2] : Fin 3 → Fin S8x512x1024.rank)
  dot_S8x512x4096_S8x4096x1024_S8x512x1024_2_1_1_2_0_0_wf : DotDims.WF S8x512x4096 S8x4096x1024 S8x512x1024 [2] [1] [1] [2] [0] [0]

variable [Facts₀]

def dot_S8x512x4096_S8x4096x1024_S8x512x1024_2_1_1_2_0_0 : DotDims S8x512x4096 S8x4096x1024 S8x512x1024 where
  lhsContracting := [2]
  rhsContracting := [1]
  lhsNonContracting := [1]
  rhsNonContracting := [2]
  lhsBatch := [0]
  rhsBatch := [0]
  wf := dot_S8x512x4096_S8x4096x1024_S8x512x1024_2_1_1_2_0_0_wf

class Facts : Prop extends Facts₀ where

variable [Facts]
-- ==== Proof.PoolSpec.lean ====
/-
  Mean pooling of token states into node states, as one function of the three argument arrays.

  For a batch `b`, a node `n` and a feature `h`,
      pooled (b, n, h) = (∑ s, mapping (b, n, s) · doc (b, s, h)) / len (b, n)
  over the extended reals: the membership-weighted sum of the 4096 token states of the batch, divided by the
  node's length. Also here: the one law that joins a sum taken in two halves, from a zero start, to the whole
  sum. It holds in every additive commutative monoid, so nothing has to be finite.
-/
import Idealize.ShloMosaic.Lib.ValueIdx
import Idealize.ShloMosaic.PureOps.Ideal

noncomputable section

open scoped BigOperators

namespace Cert.Pool

open Idealize.ShloMosaic Idealize.ShloMosaic.ValueIdx

/-- The pooled node states: entry `(b, n, h)` is the sum over the tokens `s` of `mapping (b, n, s) · doc (b, s, h)`,
    divided by `len (b, n)`. -/
def pooled (doc : FVec Ideal ⟨3, ![8, 4096, 1024]⟩ .f32) (mapping : FVec Ideal ⟨3, ![8, 512, 4096]⟩ .f32)
    (len : FVec Ideal ⟨2, ![8, 512]⟩ .f32) : FVec Ideal ⟨3, ![8, 512, 1024]⟩ .f32 :=
  fun i => Ideal.div (∑ s : Fin 4096, mapping (ix3 (i 0) (i 1) s) * doc (ix3 (i 0) s (i 2))) (len (ix2 (i 0) (i 1)))

/-- Token `k` of the first half of a batch's 4096 tokens. -/
abbrev firstHalf (k : Fin 2048) : Fin 4096 := ⟨k.val, by omega⟩

/-- Token `k` of the second half: token `2048 + k` of the batch. -/
abbrev secondHalf (k : Fin 2048) : Fin 4096 := ⟨2048 + k.val, by omega⟩

/-- A sum over the 4096 tokens taken half by half from a zero start — zero plus the first half's sum, plus the
    second half's — is the whole sum. -/
theorem sum_halves {α : Type} [AddCommMonoid α] (f : Fin 4096 → α) :
    (0 + ∑ k : Fin 2048, f (firstHalf k)) + ∑ k : Fin 2048, f (secondHalf k) = ∑ s : Fin 4096, f s := by
  rw [zero_add]
  exact (Fin.sum_univ_add (a := 2048) (b := 2048) f).symm

end Cert.Pool

end
-- ==== Proof.RefPooled.lean ====
/-
  The reference computes the pooled node states.

  Its four host operations — the batched product of the mapping with the token states, the node lengths laid out
  as a column and broadcast along the features, the quotient — read at an index `(b, n, h)` give
  `(∑ s, mapping (b, n, s) · doc (b, s, h)) / len (b, n)`: the product's entry is the sum over the one contracted
  axis, the two broadcasts read the length of node `(b, n)`, and the host's quotient is the quotient of the
  extended reals.
-/
import proofs.«111331_j84473416778474_2_alg».proof.Proof.Gen.ReferenceIdeal.Read
import proofs.«111331_j84473416778474_2_alg».proof.Proof.PoolSpec

noncomputable section

open scoped BigOperators

namespace Cert.ReferenceIdeal.RefValue

open Cert.ReferenceIdeal Cert.ReferenceIdeal.Gen Idealize.ShloMosaic Idealize.ShloMosaic.ValueIdx

/-- The reference's result, as the last stage of its run, is the pooled node states of its three arguments. -/
theorem reference_pooled (doc : FVec Ideal S8x4096x1024 .f32) (mapping : FVec Ideal S8x512x4096 .f32)
    (len : FVec Ideal S8x512 .f32) :
    Read.val_main_v3 (F := Ideal) doc mapping len = Cert.Pool.pooled doc mapping len := by
  funext i
  -- the operands' indices at output `i` and token `k`, and the length's index, by coordinates
  have hl : ∀ k : Fin 4096, Read.lidx_main_v0 i k = ix3 (i 0) (i 1) k := fun k =>
    funext fun a => Fin.ext (by match a with | ⟨0, _⟩ => rfl | ⟨1, _⟩ => rfl | ⟨2, _⟩ => rfl)
  have hr : ∀ k : Fin 4096, Read.ridx_main_v0 i k = ix3 (i 0) k (i 2) := fun k =>
    funext fun a => Fin.ext (by match a with | ⟨0, _⟩ => rfl | ⟨1, _⟩ => rfl | ⟨2, _⟩ => rfl)
  have hn : Read.idx_main_v1 (Read.idx_main_v2 i) = ix2 (i 0) (i 1) :=
    funext fun a => Fin.ext (by match a with | ⟨0, _⟩ => rfl | ⟨1, _⟩ => rfl)
  rw [Read.val_main_v3_apply, Read.val_main_v0_apply, Read.val_main_v2_apply, Read.val_main_v1_apply, hn]
  simp only [hl, hr, Ideal.hostDivf_def]
  rfl

end Cert.ReferenceIdeal.RefValue

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.KernelPayloads.lean ====
/-
  What the kernel's body computes, entry by entry, over the extended reals.

  At a grid point the body sees a `[1, 512, 2048]` block of the mapping, a `[1, 2048, 1024]` block of the token
  states, the `[1, 512, 1]` column of node lengths and the `[1, 512, 1024]` output block it accumulates into. Its
  three stored values, at entry `(·, n, h)` of the output block:
    • the reset stores `0`;
    • the accumulation stores `acc (n, h) + ∑ k, mapping (n, k) · doc (k, h)`: a `[512, 2048] × [2048, 1024]`
      product into a zero accumulator, added to what the block held;
    • the last step stores `acc (n, h) / len (n)`: the column of lengths broadcast along the features.
  The casts between `[1, a, b]` and `[a, b]` only rename the index.
-/
import proofs.«111331_j84473416778474_2_alg».proof.Proof.Gen.KernelIdeal.Skeleton
import proofs.«111331_j84473416778474_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The reset value is zero at every entry. -/
theorem reset_apply (u : Fin 1) (n : Fin 512) (h : Fin 1024) :
    k0_pay1 (F := Ideal) (ix3 u n h) = 0 := by
  unfold k0_pay1
  refine (shapeCast_ab_1ab_apply _ shapeCasts_S512x1024_S1x512x1024 u n h).trans ?_
  exact Ideal.ofBits_zero_f32

/-- The accumulation: what the block held at `(n, h)` plus the product of the mapping's block with the token
    states' block at `(n, h)`, a sum over the block's 2048 tokens. -/
theorem accumulate_apply (mapping : Vec Ideal S1x512x2048 .f32) (doc : Vec Ideal S1x2048x1024 .f32)
    (acc : Vec Ideal S1x512x1024 .f32) (u : Fin 1) (n : Fin 512) (h : Fin 1024) :
    k0_pay2 (F := Ideal) mapping doc acc (ix3 u n h)
      = acc (ix3 (0 : Fin 1) n h) + ∑ k : Fin 2048, mapping (ix3 (0 : Fin 1) n k) * doc (ix3 (0 : Fin 1) k h) := by
  unfold k0_pay2
  refine (shapeCast_ab_1ab_apply _ shapeCasts_S512x1024_S1x512x1024 u n h).trans ?_
  refine (addf_apply _ _ (ix2 n h)).trans ?_
  refine congrArg₂ (· + ·) (shapeCast_1ab_ab_apply acc shapeCasts_S1x512x1024_S512x1024 n h) ?_
  refine (Cert.PlainMatmul.matmul_zero_apply (M := 512) (K := 2048) (N := 1024) (some .fp32)
    (shapeCast S512x2048 mapping shapeCasts_S1x512x2048_S512x2048)
    (shapeCast S2048x1024 doc shapeCasts_S1x2048x1024_S2048x1024) n h).trans ?_
  refine Finset.sum_congr rfl fun k _ => ?_
  exact congrArg₂ (· * ·) (shapeCast_1ab_ab_apply mapping shapeCasts_S1x512x2048_S512x2048 n k)
    (shapeCast_1ab_ab_apply doc shapeCasts_S1x2048x1024_S2048x1024 k h)

/-- A column `[512, 1]` broadcast along 1024 features reads, at `(n, h)`, the column's entry `n`. -/
theorem column_broadcast_apply (col : FVec Ideal S512x1 .f32) (n : Fin 512) (h : Fin 1024) :
    broadcastTo S512x1024 col broadcasts_S512x1_S512x1024 (ix2 n h) = col (ix2 n (0 : Fin 1)) :=
  broadcastTo_apply col broadcasts_S512x1_S512x1024 (ix2 n h) (ix2 n (0 : Fin 1)) fun a => by
    match a with
    | ⟨0, _⟩ => show n.val = if (512 : Nat) = 1 then 0 else n.val; rw [if_neg (by decide)]
    | ⟨1, _⟩ => show 0 = if (1 : Nat) = 1 then 0 else h.val; rw [if_pos rfl]

/-- The last step: what the block held at `(n, h)` divided by the length of node `n`. -/
theorem normalise_apply (len : Vec Ideal S1x512x1 .f32) (acc : Vec Ideal S1x512x1024 .f32)
    (u : Fin 1) (n : Fin 512) (h : Fin 1024) :
    k0_pay3 (F := Ideal) len acc (ix3 u n h)
      = Ideal.div (acc (ix3 (0 : Fin 1) n h)) (len (ix3 (0 : Fin 1) n (0 : Fin 1))) := by
  unfold k0_pay3
  refine (shapeCast_ab_1ab_apply _ shapeCasts_S512x1024_S1x512x1024 u n h).trans ?_
  refine (divf_apply _ _ (ix2 n h)).trans ?_
  refine congrArg₂ Ideal.div (shapeCast_1ab_ab_apply acc shapeCasts_S1x512x1024_S512x1024 n h) ?_
  refine (column_broadcast_apply _ n h).trans ?_
  exact shapeCast_1ab_ab_apply len shapeCasts_S1x512x1_S512x1 n (0 : Fin 1)

end Cert.KernelIdeal.Payloads

end
-- ==== Proof.KernelBlocks.lean ====
/-
  The blocks the kernel's body sees at a grid point, read off the argument arrays.

  The grid has 8 × 2 points; point `t` works on batch `t / 2` and on half `t % 2` of that batch's 4096 tokens.
  At point `t`:
    • the mapping's block `[1, 512, 2048]` holds, at `(·, n, k)`, `mapping (t / 2, n, (t % 2) · 2048 + k)`;
    • the token states' block `[1, 2048, 1024]` holds, at `(·, k, h)`, `doc (t / 2, (t % 2) · 2048 + k, h)`;
    • the lengths' block `[1, 512, 1]` holds, at `(·, n, ·)`, `len (t / 2, n)`: its array is the node lengths
      laid out as a column `[8, 512, 1]` by the one host operation before the kernel is launched.
  A block's coordinate on an axis is the block index times the block's extent plus the coordinate inside the block.
-/
import proofs.«111331_j84473416778474_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The mapping's block index at point `t`: batch `t / 2`, all nodes, half `t % 2` of the tokens. -/
theorem mapping_index : ∀ t : Fin cfg0.N, win0_0.index t (0 : Fin 3) = t.val / 2
    ∧ win0_0.index t (1 : Fin 3) = 0 ∧ win0_0.index t (2 : Fin 3) = t.val % 2 :=
  (by decide +kernel : ∀ t : Fin grid0.N, _)

/-- The token states' block index at point `t`: batch `t / 2`, half `t % 2` of the tokens, all features. -/
theorem doc_index : ∀ t : Fin cfg0.N, win0_1.index t (0 : Fin 3) = t.val / 2
    ∧ win0_1.index t (1 : Fin 3) = t.val % 2 ∧ win0_1.index t (2 : Fin 3) = 0 :=
  (by decide +kernel : ∀ t : Fin grid0.N, _)

/-- The lengths' block index at point `t`: batch `t / 2`, all nodes. -/
theorem len_index : ∀ t : Fin cfg0.N, win0_2.index t (0 : Fin 3) = t.val / 2
    ∧ win0_2.index t (1 : Fin 3) = 0 ∧ win0_2.index t (2 : Fin 3) = 0 :=
  (by decide +kernel : ∀ t : Fin grid0.N, _)

/-- The mapping's block at point `t`, entry `(·, n, k)`, is the mapping at batch `b = t / 2`, node `n` and token
    `s = (t % 2) · 2048 + k`. -/
theorem mapping_block (c : Dev nD) (t : Fin cfg0.N) (u : Fin 1) (n : Fin 512) (k : Fin 2048)
    (b : Fin 8) (s : Fin 4096) (hb : b.val = t.val / 2) (hs : s.val = t.val % 2 * 2048 + k.val) :
    iblk m c 0 t (ix3 u n k) = m ((c : Thread nD τ).loc main_arg1) (ix3 b n s) := by
  obtain ⟨e0, e1, e2⟩ := mapping_index t
  unfold iblk
  show V m c main_arg1 (((cfg0.win 0).blk t).view.emb (ix3 u n k)) = _
  rw [V_main_arg1]
  refine congrArg _ (funext fun a => Fin.ext ?_)
  match a with
  | ⟨0, _⟩ => show win0_0.index t (0 : Fin 3) * 1 + 1 * u.val = b.val; omega
  | ⟨1, _⟩ => show win0_0.index t (1 : Fin 3) * 512 + 1 * n.val = n.val; omega
  | ⟨2, _⟩ => show win0_0.index t (2 : Fin 3) * 2048 + 1 * k.val = s.val; omega

/-- The token states' block at point `t`, entry `(·, k, h)`, is the token states at batch `b = t / 2`, token
    `s = (t % 2) · 2048 + k` and feature `h`. -/
theorem doc_block (c : Dev nD) (t : Fin cfg0.N) (u : Fin 1) (k : Fin 2048) (h : Fin 1024)
    (b : Fin 8) (s : Fin 4096) (hb : b.val = t.val / 2) (hs : s.val = t.val % 2 * 2048 + k.val) :
    iblk m c 1 t (ix3 u k h) = m ((c : Thread nD τ).loc main_arg0) (ix3 b s h) := by
  obtain ⟨e0, e1, e2⟩ := doc_index t
  unfold iblk
  show V m c main_arg0 (((cfg0.win 1).blk t).view.emb (ix3 u k h)) = _
  rw [V_main_arg0]
  refine congrArg _ (funext fun a => Fin.ext ?_)
  match a with
  | ⟨0, _⟩ => show win0_1.index t (0 : Fin 3) * 1 + 1 * u.val = b.val; omega
  | ⟨1, _⟩ => show win0_1.index t (1 : Fin 3) * 2048 + 1 * k.val = s.val; omega
  | ⟨2, _⟩ => show win0_1.index t (2 : Fin 3) * 1024 + 1 * h.val = h.val; omega

/-- The array the lengths' window stages: the node lengths `[8, 512]` laid out as a column `[8, 512, 1]` by the host
    operation that precedes the launch. -/
theorem len_column (c : Dev nD) :
    (V m c main_v0 : S8x512x1.Idx → EReal)
      = broadcastInDim S8x512x1 ![0, 1] bcast_S8x512_S8x512x1_0_1 (m ((c : Thread nD τ).loc main_arg2)) := by
  dsimp only [V, hostOps0]
  after_results

/-- The lengths' block at point `t`, entry `(·, n, ·)`, is the length of node `n` of batch `b = t / 2`. -/
theorem len_block (c : Dev nD) (t : Fin cfg0.N) (u : Fin 1) (n : Fin 512) (z : Fin 1)
    (b : Fin 8) (hb : b.val = t.val / 2) :
    iblk m c 2 t (ix3 u n z) = m ((c : Thread nD τ).loc main_arg2) (ix2 b n) := by
  obtain ⟨e0, e1, e2⟩ := len_index t
  unfold iblk
  show V m c main_v0 (((cfg0.win 2).blk t).view.emb (ix3 u n z)) = _
  rw [len_column]
  refine broadcastInDim_apply _ bcast_S8x512_S8x512x1_0_1 _ _ (ix2 b n) fun a => ?_
  match a with
  | ⟨0, _⟩ =>
    show b.val = if (8 : Nat) = 1 then 0 else win0_2.index t (0 : Fin 3) * 1 + 1 * u.val
    rw [if_neg (by decide)]; omega
  | ⟨1, _⟩ =>
    show n.val = if (512 : Nat) = 1 then 0 else win0_2.index t (1 : Fin 3) * 512 + 1 * n.val
    rw [if_neg (by decide)]; omega

end Cert.KernelIdeal.Blocks

end
-- ==== Proof.KernelPooled.lean ====
/-
  The kernel's output array holds the pooled node states.

  The output block of batch `b` stays resident over the batch's two grid points `2b` and `2b + 1`. The first point
  resets it to zero and adds the product over the first 2048 tokens; the second adds the product over the last
  2048 tokens and divides by the node lengths. So entry `(n, h)` of the block written back for batch `b` is
      ((0 + ∑ k, mapping (b, n, k) · doc (b, k, h)) + ∑ k, mapping (b, n, 2048 + k) · doc (b, 2048 + k, h)) / len (b, n),
  and the sum in two halves from zero is the sum over all 4096 tokens: the pooled node states. Every array index
  lies in some batch's block, so this is the whole output array.
-/
import proofs.«111331_j84473416778474_2_alg».proof.Proof.Gen.KernelIdeal.Value
import proofs.«111331_j84473416778474_2_alg».proof.Proof.PoolSpec
import proofs.«111331_j84473416778474_2_alg».proof.Proof.KernelPayloads
import proofs.«111331_j84473416778474_2_alg».proof.Proof.KernelBlocks

noncomputable section

open scoped BigOperators

namespace Cert.KernelIdeal.Pooled

open Cert.KernelIdeal Cert.KernelIdeal.Gen Idealize.ShloMosaic Idealize.ShloMosaic.TcCoe Idealize.SL.Sem
open Idealize.ShloMosaic.ValueIdx
open Cert.Pool (pooled firstHalf secondHalf sum_halves)

variable (m : (ℓ : Loc nD τ sig) → Buf (Elt Ideal) ℓ)

/-- The fold over a run of points does not depend on how its first point is written. -/
theorem accAt_congr {α : Type} {N : Nat} (a : (n : Nat) → n < N → α) (g : (n : Nat) → n < N → α → α)
    {b b' : Nat} (e : b = b') (j : Nat) (h : b + j < N) (h' : b' + j < N) :
    Pipeline.accAt a g b j h = Pipeline.accAt a g b' j h' := by
  subst e; rfl

/-- The product's sum over a batch's 4096 tokens, taken as the first 2048 from zero and then the last 2048. -/
theorem product_halves (mapping : FVec Ideal S8x512x4096 .f32) (doc : FVec Ideal S8x4096x1024 .f32)
    (b : Fin 8) (n : Fin 512) (h : Fin 1024) :
    (0 + ∑ k : Fin 2048, mapping (ix3 b n (firstHalf k)) * doc (ix3 b (firstHalf k) h))
        + ∑ k : Fin 2048, mapping (ix3 b n (secondHalf k)) * doc (ix3 b (secondHalf k) h)
      = ∑ s : Fin 4096, mapping (ix3 b n s) * doc (ix3 b s h) :=
  sum_halves (α := EReal) fun s => mapping (ix3 b n s) * doc (ix3 b s h)

/-- What the two points of batch `b` leave in the output block, at entry `(·, n, h)`: the pooled node state
    `(b, n, h)`. -/
theorem batch_fold (c : Dev nD) (b : Fin 8) (hlt : 2 * b.val + 1 < cfg0.N) (u : Fin 1) (n : Fin 512) (h : Fin 1024) :
    Pipeline.accAt (Value.reset3 m c) (Value.step3 m c) (2 * b.val) 1 hlt (ix3 u n h)
      = pooled (m ((c : Thread nD τ).loc main_arg0)) (m ((c : Thread nD τ).loc main_arg1))
          (m ((c : Thread nD τ).loc main_arg2)) (ix3 b n h) := by
  rw [Pipeline.accAt_succ, Pipeline.accAt_zero]
  unfold Value.step3 Value.reset3
  -- the second point divides what it accumulated by the node's length
  refine (Payloads.normalise_apply _ _ u n h).trans ?_
  unfold pooled
  refine congrArg₂ Ideal.div ?_ ?_
  · -- the accumulated value: zero, plus the first half's product, plus the second half's
    refine (Payloads.accumulate_apply _ _ _ (0 : Fin 1) n h).trans ?_
    refine (congrArg₂ (· + ·) ((Payloads.accumulate_apply _ _ _ (0 : Fin 1) n h).trans
      (congrArg₂ (· + ·) (Payloads.reset_apply (0 : Fin 1) n h) rfl)) rfl).trans ?_
    refine Eq.trans ?_ (product_halves (m ((c : Thread nD τ).loc main_arg1)) (m ((c : Thread nD τ).loc main_arg0)) b n h)
    refine congrArg₂ (· + ·) (congrArg (0 + ·) (Finset.sum_congr rfl fun k _ => ?_))
      (Finset.sum_congr rfl fun k _ => ?_)
    · exact congrArg₂ (· * ·)
        (Blocks.mapping_block m c _ (0 : Fin 1) n k b (firstHalf k) (by show b.val = 2 * b.val / 2; omega)
          (by show k.val = 2 * b.val % 2 * 2048 + k.val; omega))
        (Blocks.doc_block m c _ (0 : Fin 1) k h b (firstHalf k) (by show b.val = 2 * b.val / 2; omega)
          (by show k.val = 2 * b.val % 2 * 2048 + k.val; omega))
    · exact congrArg₂ (· * ·)
        (Blocks.mapping_block m c _ (0 : Fin 1) n k b (secondHalf k) (by show b.val = (2 * b.val + (0 + 1)) / 2; omega)
          (by show 2048 + k.val = (2 * b.val + (0 + 1)) % 2 * 2048 + k.val; omega))
        (Blocks.doc_block m c _ (0 : Fin 1) k h b (secondHalf k) (by show b.val = (2 * b.val + (0 + 1)) / 2; omega)
          (by show 2048 + k.val = (2 * b.val + (0 + 1)) % 2 * 2048 + k.val; omega))
  · exact Blocks.len_block m c _ (0 : Fin 1) n (0 : Fin 1) b (by show b.val = (2 * b.val + (0 + 1)) / 2; omega)

/-- The kernel's output array after the run is the pooled node states of its three arguments. -/
theorem kernel_pooled (c : Dev nD) :
    Value.G3 (F := Ideal) m c
      = pooled (m ((c : Thread nD τ).loc main_arg0)) (m ((c : Thread nD τ).loc main_arg1))
          (m ((c : Thread nD τ).loc main_arg2)) := by
  funext i
  obtain ⟨b, n, h, rfl⟩ : ∃ (b : Fin 8) (n : Fin 512) (h : Fin 1024), i = ix3 b n h := ⟨i 0, i 1, i 2, eq_ix3 i⟩
  have hN : cfg0.N = 16 := N_0
  have hb : b.val < 8 := b.isLt
  have hn : n.val < 512 := n.isLt
  have hh : h.val < 1024 := h.isLt
  -- the batch's block is the one that holds the index, and the index sits at `(0, n, h)` in it
  have hrun : Value.run3Of (ix3 b n h) = b.val := by
    show 1 * (b.val / 1 - 0) + 1 * (n.val / 512 - 0) + 1 * (h.val / 1024 - 0) = b.val
    omega
  have hloc : Value.loc3Of (ix3 b n h) = ix3 (0 : Fin 1) n h := by
    funext a; apply Fin.ext
    match a with
    | ⟨0, _⟩ => show b.val % 1 = 0; omega
    | ⟨1, _⟩ => show n.val % 512 = n.val; omega
    | ⟨2, _⟩ => show h.val % 1024 = h.val; omega
  have hlt : 2 * b.val + 1 < cfg0.N := by omega
  unfold Value.G3
  rw [dif_pos (by rw [hrun]; exact hlt), hloc]
  exact (congrFun (accAt_congr (Value.reset3 m c) (Value.step3 m c) (congrArg (2 * ·) hrun) 1 _ hlt) _).trans
    (batch_fold m c b hlt (0 : Fin 1) n h)

end Cert.KernelIdeal.Pooled

end
-- ==== Proof.lean ====
/-
  Mean pooling of token states into node states: a tiled kernel against a batched matrix product.

  Both programs compute, for a batch `b`, a node `n` and a feature `h`,
      pooled (b, n, h) = (∑ s, mapping (b, n, s) · doc (b, s, h)) / len (b, n).
  The reference takes the product over all 4096 tokens of a batch at once and divides. The kernel walks a grid of
  8 batches × 2 halves of the tokens: the first half's point zeroes the batch's output block and adds the product over
  its 2048 tokens, the second half's point adds its product and divides by the node lengths. Over the extended reals
  the two agree because a sum taken in two halves from zero is the whole sum — associativity and commutativity of
  addition only, so the inputs' finiteness is never used — and the quotient is the same operation on both sides.

  The kernel's output array as the fold of each batch's two points, and the reference's result as the composition of
  its four host operations, are generated modules; proved here by hand is that each of them is `pooled`
  (Proof/KernelPooled.lean over Proof/KernelPayloads.lean and Proof/KernelBlocks.lean; Proof/RefPooled.lean), the
  function itself being Proof/PoolSpec.lean.
-/
import proofs.«111331_j84473416778474_2_alg».proof.Defs
import proofs.«111331_j84473416778474_2_alg».proof.Proof.Gen.Kernel.Frame
import proofs.«111331_j84473416778474_2_alg».proof.Proof.Gen.KernelIdeal.Value
import proofs.«111331_j84473416778474_2_alg».proof.Proof.Gen.Pre_finite_inputs
import proofs.«111331_j84473416778474_2_alg».proof.Proof.Gen.ReferenceIdeal.Run
import proofs.«111331_j84473416778474_2_alg».proof.Proof.RefPooled
import proofs.«111331_j84473416778474_2_alg».proof.Proof.KernelPooled
import Idealize.ShloMosaic.Adequacy
import Idealize.ShloMosaic.Init

noncomputable section

namespace Cert.Proof

open Idealize.ShloMosaic Idealize.SL.Sem

/-- The idealized kernel terminates without a fault and leaves its arguments as they were: its value run, with the
    result forgotten. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the three arguments both programs end with the pooled node states of those
    arguments: the kernel's output array is `pooled` of them, and so is the reference's quotient. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact ((Cert.ReferenceIdeal.Read.val_main_v3_eq _ _ _).trans
    (Cert.ReferenceIdeal.RefValue.reference_pooled _ _ _)).trans (Cert.KernelIdeal.Pooled.kernel_pooled m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
